-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048x3 : Shape := ⟨3, ![4096, 2048, 3]⟩
abbrev S_ : Shape := ⟨0, ![]⟩

class Facts : Prop where
  bcast_S_S4096x2048x3 : S_.BroadcastsInDim S4096x2048x3 (![] : Fin 0 → Fin S4096x2048x3.rank)
  reducesTo_S4096x2048x3_S_d0_1_2 : S4096x2048x3.ReducesTo [0, 1, 2] S_
  h_S_ : 0 < S_.numel

variable [Facts]

def fn {F : FTy → Type} [FloatOps F] (main_arg0 : FVec F S4096x2048x3 .f32) : IVec S_ 1 :=
  let main_v0 : FVec F S4096x2048x3 .f32 := Host.absf main_arg0
  let main_cst : FVec F S_ .f32 := constant S_ .f32 0x7F800000#32
  let main_v1 : FVec F S4096x2048x3 .f32 := broadcastInDim S4096x2048x3 ![] bcast_S_S4096x2048x3 main_cst
  let main_v2 : IVec S4096x2048x3 1 := cmpf .olt main_v0 main_v1
  let main_c : IVec S_ 1 := constantI S_ 1 1#1
  let main_v3 : IVec S_ 1 := (fun x v => Host.reduce IntOp.andi x v reducesTo_S4096x2048x3_S_d0_1_2 h_S_) main_v2 main_c
  main_v3
-- ==== Kernel.lean ====
abbrev S4096x2048x3 : Shape := ⟨3, ![4096, 2048, 3]⟩
abbrev S8388608x3 : Shape := ⟨2, ![8388608, 3]⟩
abbrev S8388608x9 : Shape := ⟨2, ![8388608, 9]⟩
abbrev S4096x3 : Shape := ⟨2, ![4096, 3]⟩
abbrev S4096x9 : Shape := ⟨2, ![4096, 9]⟩
abbrev S4096 : Shape := ⟨1, ![4096]⟩
abbrev S4096x1 : Shape := ⟨2, ![4096, 1]⟩
abbrev S4096x2048x3x3 : Shape := ⟨4, ![4096, 2048, 3, 3]⟩

abbrev nBuf : Space → Nat
  | .hbm => 4
  | .vmem => 4
  | .smem => 0
  | _ => 0

abbrev bufTy : (tb : Table) → Fin (tcTables nBuf tb) → BufTy
  | .hbm, ⟨0, _⟩ => ⟨S4096x2048x3, .f32⟩
  | .hbm, ⟨1, _⟩ => ⟨S8388608x3, .f32⟩
  | .hbm, ⟨2, _⟩ => ⟨S8388608x9, .f32⟩
  | .hbm, ⟨3, _⟩ => ⟨S4096x2048x3x3, .f32⟩
  | .local _ .vmem, ⟨0, _⟩ => ⟨S4096x3, .f32⟩
  | .local _ .vmem, ⟨1, _⟩ => ⟨S4096x3, .f32⟩
  | .local _ .vmem, ⟨2, _⟩ => ⟨S4096x9, .f32⟩
  | .local _ .vmem, ⟨3, _⟩ => ⟨S4096x9, .f32⟩
  | _, _ => ⟨S4096x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x2048x3_S8388608x3 : S4096x2048x3.ShapeCasts S8388608x3
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  reduces_S4096x3_S4096 : S4096x3.Reduces [1] S4096
  shapeCasts_S4096_S4096x1 : S4096.ShapeCasts S4096x1
  broadcasts_S4096x1_S4096x3 : S4096x1.Broadcasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  concatenates_S4096x1_S4096x1_S4096x1_S4096x1_S4096x1_S4096x1_S4096x1_S4096x1_S4096x1_S4096x9_d1 : Shape.Concatenates [S4096x1, S4096x1, S4096x1, S4096x1, S4096x1, S4096x1, S4096x1, S4096x1, S4096x1] S4096x9 1
  inb_S4096x9_S4096x9_0_0 : ∀ a, (![0, 0] : Fin 2 → Nat) a + S4096x9.size a ≤ S4096x9.size a
  h_S4096x9 : 0 < S4096x9.numel
  shapeCasts_S8388608x9_S4096x2048x3x3 : S8388608x9.ShapeCasts S4096x2048x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S8388608x3.size a
  hwx0_0 : ∀ i : grid0.Coords, EltTy.bits .f32 = 32 ∨ (Rect.block (s := S8388608x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x9.size a ≤ S8388608x9.size a
  hwx0_1 : ∀ i : grid0.Coords, EltTy.bits .f32 = 32 ∨ (Rect.block (s := S8388608x9) S4096x9.size (cc0_transform_1 i) (hinb0_1 i)).WholeWords (EltTy.packing .f32)

variable [Facts₀]

abbrev win0_0 : Pipeline.Window sig grid0 :=
  Pipeline.Window.ofSpec (Memref.whole main_v0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048x3 : Shape := ⟨3, ![4096, 2048, 3]⟩
abbrev S_ : Shape := ⟨0, ![]⟩
abbrev S4096x2048 : Shape := ⟨2, ![4096, 2048]⟩
abbrev S4096x2048x1 : Shape := ⟨3, ![4096, 2048, 1]⟩
abbrev S4096x2048x9 : Shape := ⟨3, ![4096, 2048, 9]⟩
abbrev S4096x2048x3x3 : Shape := ⟨4, ![4096, 2048, 3, 3]⟩
abbrev S4096x2048x1x1 : Shape := ⟨4, ![4096, 2048, 1, 1]⟩
abbrev S3x3 : Shape := ⟨2, ![3, 3]⟩
abbrev S1x1x3x3 : Shape := ⟨4, ![1, 1, 3, 3]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048x3, .f32⟩
  | .hbm, ⟨1, _⟩ => ⟨S4096x2048x3, .f32⟩
  | .hbm, ⟨2, _⟩ => ⟨S_, .f32⟩
  | .hbm, ⟨3, _⟩ => ⟨S4096x2048, .f32⟩
  | .hbm, ⟨4, _⟩ => ⟨S4096x2048x1, .f32⟩
  | .hbm, ⟨5, _⟩ => ⟨S4096x2048x1, .f32⟩
  | .hbm, ⟨6, _⟩ => ⟨S_, .f32⟩
  | .hbm, ⟨7, _⟩ => ⟨S4096x2048x1, .f32⟩
  | .hbm, ⟨8, _⟩ => ⟨S4096x2048x1, .f32⟩
  | .hbm, ⟨9, _⟩ => ⟨S4096x2048x3, .f32⟩
  | .hbm, ⟨10, _⟩ => ⟨S4096x2048x3, .f32⟩
  | .hbm, ⟨11, _⟩ => ⟨S4096x2048x1, .f32⟩
  | .hbm, ⟨12, _⟩ => ⟨S4096x2048, .f32⟩
  | .hbm, ⟨13, _⟩ => ⟨S4096x2048x1, .f32⟩
  | .hbm, ⟨14, _⟩ => ⟨S4096x2048, .f32⟩
  | .hbm, ⟨15, _⟩ => ⟨S4096x2048x1, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048x1, .f32⟩
  | .hbm, ⟨23, _⟩ => ⟨S4096x2048x1, .f32⟩
  | .hbm, ⟨24, _⟩ => ⟨S4096x2048x1, .f32⟩
  | .hbm, ⟨25, _⟩ => ⟨S4096x2048x1, .f32⟩
  | .hbm, ⟨26, _⟩ => ⟨S4096x2048x1, .f32⟩
  | .hbm, ⟨27, _⟩ => ⟨S4096x2048x1, .f32⟩
  | .hbm, ⟨28, _⟩ => ⟨S4096x2048x1, .f32⟩
  | .hbm, ⟨29, _⟩ => ⟨S4096x2048x1, .f32⟩
  | .hbm, ⟨30, _⟩ => ⟨S4096x2048x1, .f32⟩
  | .hbm, ⟨31, _⟩ => ⟨S4096x2048x9, .f32⟩
  | .hbm, ⟨32, _⟩ => ⟨S4096x2048x3x3, .f32⟩
  | .hbm, ⟨33, _⟩ => ⟨S4096x2048x1, .f32⟩
  | .hbm, ⟨34, _⟩ => ⟨S4096x2048x1x1, .f32⟩
  | .hbm, ⟨35, _⟩ => ⟨S4096x2048x1, .f32⟩
  | .hbm, ⟨36, _⟩ => ⟨S_, .f32⟩
  | .hbm, ⟨37, _⟩ => ⟨S4096x2048x1, .f32⟩
  | .hbm, ⟨38, _⟩ => ⟨S4096x2048x1, .f32⟩
  | .hbm, ⟨39, _⟩ => ⟨S4096x2048x1x1, .f32⟩
  | .hbm, ⟨40, _⟩ => ⟨S4096x2048x3x3, .f32⟩
  | .hbm, ⟨41, _⟩ => ⟨S3x3, .i32⟩
  | .hbm, ⟨42, _⟩ => ⟨S3x3, .i32⟩
  | .hbm, ⟨43, _⟩ => ⟨S_, .i32⟩
  | .hbm, ⟨44, _⟩ => ⟨S3x3, .i32⟩
  | .hbm, ⟨45, _⟩ => ⟨S3x3, .i32⟩
  | .hbm, ⟨46, _⟩ => ⟨S3x3, .i1⟩
  | .hbm, ⟨47, _⟩ => ⟨S3x3, .f32⟩
  | .hbm, ⟨48, _⟩ => ⟨S4096x2048x3x3, .f32⟩
  | .hbm, ⟨49, _⟩ => ⟨S4096x2048x3x3, .f32⟩
  | .hbm, ⟨50, _⟩ => ⟨S1x1x3x3, .f32⟩
  | .hbm, ⟨51, _⟩ => ⟨S4096x2048x3x3, .f32⟩
  | .hbm, ⟨52, _⟩ => ⟨S4096x2048x3x3, .f32⟩
  | .hbm, ⟨53, _⟩ => ⟨S4096x2048x3x3, .f32⟩
  | .hbm, ⟨54, _⟩ => ⟨S4096x2048x3x3, .f32⟩
  | .hbm, ⟨55, _⟩ => ⟨S4096x2048x3x3, .f32⟩
  | _, _ => ⟨S4096x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]

class Facts₀ : Prop where
  reducesTo_S4096x2048x3_S4096x2048_d2 : S4096x2048x3.ReducesTo [2] S4096x2048
  h_S_ : 0 < S_.numel
  bcast_S4096x2048_S4096x2048x1_0_1 : S4096x2048.BroadcastsInDim S4096x2048x1 (![0, 1] : Fin 2 → Fin S4096x2048x1.rank)
  bcast_S_S4096x2048x1 : S_.BroadcastsInDim S4096x2048x1 (![] : Fin 0 → Fin S4096x2048x1.rank)
  bcast_S4096x2048x1_S4096x2048x3_0_1_2 : S4096x2048x1.BroadcastsInDim S4096x2048x3 (![0, 1, 2] : Fin 3 → Fin S4096x2048x3.rank)
  slices_S4096x2048x3_S4096x2048x1_0_0_0 : S4096x2048x3.Slices ![0, 0, 0] S4096x2048x1
  shapeCasts_S4096x2048x1_S4096x2048 : S4096x2048x1.ShapeCasts S4096x2048
  slices_S4096x2048x3_S4096x2048x1_0_0_1 : S4096x2048x3.Slices ![0, 0, 1] S4096x2048x1
  slices_S4096x2048x3_S4096x2048x1_0_0_2 : S4096x2048x3.Slices ![0, 0, 2] S4096x2048x1
  bcast_S_S4096x2048 : S_.BroadcastsInDim S4096x2048 (![] : Fin 0 → Fin S4096x2048.rank)
  concatenates_S4096x2048x1_S4096x2048x1_S4096x2048x1_S4096x2048x1_S4096x2048x1_S4096x2048x1_S4096x2048x1_S4096x2048x1_S4096x2048x1_S4096x2048x9_d2 : Shape.Concatenates [S4096x2048x1, S4096x2048x1, S4096x2048x1, S4096x2048x1, S4096x2048x1, S4096x2048x1, S4096x2048x1, S4096x2048x1, S4096x2048x1] S4096x2048x9 2
  shapeCasts_S4096x2048x9_S4096x2048x3x3 : S4096x2048x9.ShapeCasts S4096x2048x3x3
  bcast_S4096x2048x1_S4096x2048x1x1_0_1_2 : S4096x2048x1.BroadcastsInDim S4096x2048x1x1 (![0, 1, 2] : Fin 3 → Fin S4096x2048x1x1.rank)
  bcast_S_S3x3 : S_.BroadcastsInDim S3x3 (![] : Fin 0 → Fin S3x3.rank)
  bcast_S4096x2048x1x1_S4096x2048x3x3_0_1_2_3 : S4096x2048x1x1.BroadcastsInDim S4096x2048x3x3 (![0, 1, 2, 3] : Fin 4 → Fin S4096x2048x3x3.rank)
  bcast_S3x3_S1x1x3x3_2_3 : S3x3.BroadcastsInDim S1x1x3x3 (![2, 3] : Fin 2 → Fin S1x1x3x3.rank)
  bcast_S1x1x3x3_S4096x2048x3x3_0_1_2_3 : S1x1x3x3.BroadcastsInDim S4096x2048x3x3 (![0, 1, 2, 3] : Fin 4 → Fin S4096x2048x3x3.rank)
  dot_S4096x2048x3x3_S4096x2048x3x3_S4096x2048x3x3_3_2_2_3_01_01_wf : DotDims.WF S4096x2048x3x3 S4096x2048x3x3 S4096x2048x3x3 [3] [2] [2] [3] [0, 1] [0, 1]

variable [Facts₀]

def dot_S4096x2048x3x3_S4096x2048x3x3_S4096x2048x3x3_3_2_2_3_01_01 : DotDims S4096x2048x3x3 S4096x2048x3x3 S4096x2048x3x3 where
  lhsContracting := [3]
  rhsContracting := [2]
  lhsNonContracting := [2]
  rhsNonContracting := [3]
  lhsBatch := [0, 1]
  rhsBatch := [0, 1]
  wf := dot_S4096x2048x3x3_S4096x2048x3x3_S4096x2048x3x3_3_2_2_3_01_01_wf

class Facts : Prop extends Facts₀ where

variable [Facts]
-- ==== Proof.Rodrigues.lean ====
/-
  Rodrigues' rotation formula on the extended reals, for one twist vector `x = (x 0, x 1, x 2)`.

  The angle is `θ = max (√(x 0² + x 1² + x 2²)) ε` for the fixed positive constant `ε` (a 32-bit float
  pattern, never evaluated here), the unit axis `a = x / θ`, and the rotation matrix is
  `R = I + sin θ · A + (1 - cos θ) · A²` with `A` the cross-product matrix of `a`
  (`A v = a × v`: rows `(0, -a 2, a 1)`, `(a 2, 0, -a 0)`, `(-a 1, a 0, 0)`).

  `entry x e` is entry `e = 3·i + j` of `R` written out: the product `A²` has diagonal entries
  `-(a j² + a k²)` and off-diagonal entries `a i · a j`, so no matrix product is left. `matrixEntry x i j` is
  the same entry with the matrix product kept as a sum over the middle index. `matrixEntry_eq_entry` says the
  two agree. The laws used are: `0 · u = 0`, `0 + u = u`, `(-u) · v = -(u · v) = u · (-v)`,
  `u - v = u + -v`, and commutativity of `·`; all of them hold for every extended real, infinite ones included,
  so nothing is assumed about `x`. `rotations` is the formula applied to every twist of a [4096, 2048, 3] array.
-/
import Idealize.ShloMosaic.PureOps.Ideal
import Idealize.ShloMosaic.PureOps.Ideal.Laws
import Idealize.ShloMosaic.Lib.ValueIdx

noncomputable section

namespace Cert.Rodrigues

open Idealize.ShloMosaic

/-- The lower clamp of the angle: the float pattern both programs write. -/
abbrev eps : EReal := Ideal.ofBits .f32 0x3727C5AC#32

/-- The rotation angle: the Euclidean norm of the twist, clamped from below. -/
def angle (x : Fin 3 → EReal) : EReal := max (Ideal.sqrt (∑ k : Fin 3, x k * x k)) eps

/-- The rotation axis: the twist divided by the angle. -/
def axis (x : Fin 3 → EReal) (k : Fin 3) : EReal := Ideal.div (x k) (angle x)

/-- `sin θ`. -/
def sn (x : Fin 3 → EReal) : EReal := Ideal.sin (angle x)

/-- `1 - cos θ`. -/
def vers (x : Fin 3 → EReal) : EReal := 1 - Ideal.cos (angle x)

/-- Entry `e = 3·i + j` of the rotation matrix, the square of the cross-product matrix written out. -/
def entry (x : Fin 3 → EReal) : Fin 9 → EReal
  | 0 => 1 + (0 - axis x 2 * axis x 2 - axis x 1 * axis x 1) * vers x
  | 1 => (0 - axis x 2 * sn x) + axis x 0 * axis x 1 * vers x
  | 2 => axis x 1 * sn x + axis x 0 * axis x 2 * vers x
  | 3 => axis x 2 * sn x + axis x 0 * axis x 1 * vers x
  | 4 => 1 + (0 - axis x 2 * axis x 2 - axis x 0 * axis x 0) * vers x
  | 5 => (0 - axis x 0 * sn x) + axis x 1 * axis x 2 * vers x
  | 6 => (0 - axis x 1 * sn x) + axis x 0 * axis x 2 * vers x
  | 7 => axis x 0 * sn x + axis x 1 * axis x 2 * vers x
  | 8 => 1 + (0 - axis x 1 * axis x 1 - axis x 0 * axis x 0) * vers x

/-- The cross-product matrix of the axis, row-major: entry `3·i + j`. -/
def skew (x : Fin 3 → EReal) : Fin 9 → EReal
  | 0 => 0
  | 1 => -axis x 2
  | 2 => axis x 1
  | 3 => axis x 2
  | 4 => 0
  | 5 => -axis x 0
  | 6 => -axis x 1
  | 7 => axis x 0
  | 8 => 0

/-- Position `3·i + j` of entry `(i, j)` of a row-major 3 × 3 matrix. -/
def flat (i j : Fin 3) : Fin 9 := ⟨3 * i.val + j.val, by have := i.isLt; have := j.isLt; omega⟩

/-- The identity matrix's entry. -/
def eye (i j : Fin 3) : EReal := if i = j then 1 else 0

/-- Entry `(i, j)` of `I + A · sin θ + (A A) · (1 - cos θ)`, the matrix product a sum over the middle index. -/
def matrixEntry (x : Fin 3 → EReal) (i j : Fin 3) : EReal :=
  (eye i j + skew x (flat i j) * sn x) + (∑ k : Fin 3, skew x (flat i k) * skew x (flat k j)) * vers x

theorem flat_00 : flat 0 0 = 0 := rfl
theorem flat_01 : flat 0 1 = 1 := rfl
theorem flat_02 : flat 0 2 = 2 := rfl
theorem flat_10 : flat 1 0 = 3 := rfl
theorem flat_11 : flat 1 1 = 4 := rfl
theorem flat_12 : flat 1 2 = 5 := rfl
theorem flat_20 : flat 2 0 = 6 := rfl
theorem flat_21 : flat 2 1 = 7 := rfl
theorem flat_22 : flat 2 2 = 8 := rfl

/-- The laws that identify the two forms of an entry: annihilation by zero, the unit of addition, the sign
    of a product, the opposite of an opposite, subtraction as addition of the opposite, commutativity of the product. -/
local macro "entry_laws" : tactic => `(tactic|
  simp only [matrixEntry, entry, skew, eye, Fin.sum_univ_three, flat_00, flat_01, flat_02, flat_10, flat_11, flat_12,
    flat_20, flat_21, flat_22, Fin.isValue, Fin.reduceEq, if_true, if_false, reduceIte,
    zero_mul, mul_zero, add_zero, zero_add, neg_mul, mul_neg, neg_neg, neg_zero, zero_sub, sub_eq_add_neg, mul_comm])

/-- The matrix form and the written-out form are the same extended real, entry by entry. -/
theorem matrixEntry_eq_entry (x : Fin 3 → EReal) (i j : Fin 3) : matrixEntry x i j = entry x (flat i j) := by
  fin_cases i <;> fin_cases j
  · show matrixEntry x 0 0 = entry x (flat 0 0); entry_laws
  · show matrixEntry x 0 1 = entry x (flat 0 1); entry_laws
  · show matrixEntry x 0 2 = entry x (flat 0 2); entry_laws
  · show matrixEntry x 1 0 = entry x (flat 1 0); entry_laws
  · show matrixEntry x 1 1 = entry x (flat 1 1); entry_laws
  · show matrixEntry x 1 2 = entry x (flat 1 2); entry_laws
  · show matrixEntry x 2 0 = entry x (flat 2 0); entry_laws
  · show matrixEntry x 2 1 = entry x (flat 2 1); entry_laws
  · show matrixEntry x 2 2 = entry x (flat 2 2); entry_laws

/-- The whole result: for twist `(b, r)` of a [4096, 2048, 3] array, entry `(i, j)` of its rotation matrix, as a
    [4096, 2048, 3, 3] array. -/
def rotations (x0 : (⟨3, ![4096, 2048, 3]⟩ : Shape).Idx → EReal) : (⟨4, ![4096, 2048, 3, 3]⟩ : Shape).Idx → EReal :=
  fun i => entry (fun k => x0 (ValueIdx.ix3 (i 0) (i 1) k)) (flat (i 2) (i 3))

theorem rotations_apply (x0 : (⟨3, ![4096, 2048, 3]⟩ : Shape).Idx → EReal) (b : Fin 4096) (r : Fin 2048) (i j : Fin 3) :
    rotations x0 (ValueIdx.ix4 b r i j) = entry (fun k => x0 (ValueIdx.ix3 b r k)) (flat i j) := rfl

end Cert.Rodrigues

end
-- ==== Proof.KernelRow.lean ====
/-
  What the kernel body stores, read one row at a time.

  The body loads a [4096, 3] block of twists and stores a [4096, 9] block. Every operation in between acts on each
  row `p` separately: the lane sum of squares, its square root clamped from below (the angle, kept as a
  [4096, 1] column), the division of the row by the angle (the axis), the three columns of the axis, the sine and
  one minus the cosine of the angle, their pairwise products, and finally nine [4096, 1] columns joined along the
  row. So the stored value at `(p, e)` depends on row `p` of the loaded block alone, and it is entry `e` of
  the rotation matrix of that row (`Cert.Rodrigues.entry`) — the kernel writes the square of the cross-product
  matrix out entry by entry, which is the form `entry` is stated in, so each column matches its entry term by term
  once the two float patterns for one and zero are read as the numbers one and zero.

  Each lemma reads one intermediate value at row `p`; `stored_at` is the conclusion.
-/
import proofs.«135314_j48696339202533_2_alg».proof.Proof.Gen.KernelIdeal.Skeleton
import proofs.«135314_j48696339202533_2_alg».proof.Proof.Rodrigues
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.RowValue

open Cert.KernelIdeal Cert.KernelIdeal.Gen Idealize.ShloMosaic Idealize.ShloMosaic.ValueIdx Cert.Rodrigues

/-- Row `p` of a [4096, 3] block, as a twist vector. -/
def rowOf (v : Vec Ideal S4096x3 .f32) (p : Fin 4096) : Fin 3 → EReal := fun k => v (ix2 p k)

variable (v : Vec Ideal S4096x3 .f32) (p : Fin 4096)

/-- The block as loaded: its shape cast is to its own shape. -/
theorem pay2_at (k : Fin 3) : k0_pay2 (F := Ideal) v (ix2 p k) = rowOf v p k :=
  congrFun (shapeCast_self v shapeCasts_S4096x3_S4096x3) (ix2 p k)

/-- The lane sum of the squares of row `p` is the sum of its three squares (the accumulator it starts from is the
    neutral element and does not appear). -/
theorem sumsq_at :
    multiReduction (F := Ideal) .add [1] S4096 (mulf (k0_pay2 v) (k0_pay2 v)) 0x00000000#32 reduces_S4096x3_S4096 (.inl rfl) rfl (ix1 p)
      = ∑ k : Fin 3, rowOf v p k * rowOf v p k := by
  refine (Ideal.multiReduction_add_single _ _ reduces_S4096x3_S4096 (.inl rfl) rfl (ix1 p)).trans ?_
  show (∑ k : Fin 3, (mulf (k0_pay2 v) (k0_pay2 v)) (reduces_S4096x3_S4096.lift (ix1 p) k)) = _
  refine Finset.sum_congr rfl fun k _ => ?_
  have e : reduces_S4096x3_S4096.lift (ix1 p) k = ix2 p k := funext fun a => Fin.ext (by match a with | ⟨0, _⟩ => rfl | ⟨1, _⟩ => rfl)
  rw [e]
  exact congrArg₂ (· * ·) (pay2_at v p k) (pay2_at v p k)

/-- The clamped norm of row `p`: the column [4096, 1] holds the angle of each row. -/
theorem pay3_at : k0_pay3 (F := Ideal) v (ix2 p (0 : Fin 1)) = angle (rowOf v p) := by
  unfold k0_pay3 angle
  refine congrArg₂ max (congrArg Ideal.sqrt ?_) rfl
  exact (shapeCast_apply _ shapeCasts_S4096_S4096x1 (ix2 p (0 : Fin 1)) (ix1 p)
    (by rw [Shape.rowMajor_val_one, Shape.rowMajor_val_two]; show p.val = p.val * 1 + 0; omega)).trans (sumsq_at v p)

/-- The column of angles broadcast along the row, read at `(p, k)`, is row `p`'s angle. -/
theorem bcast_angle_at (k : Fin 3) :
    broadcastTo S4096x3 (k0_pay3 (F := Ideal) v) broadcasts_S4096x1_S4096x3 (ix2 p k) = angle (rowOf v p) :=
  (broadcastTo_apply _ broadcasts_S4096x1_S4096x3 (ix2 p k) (ix2 p (0 : Fin 1)) (fun a => match a with
    | ⟨0, _⟩ => by show p.val = if (4096 : Nat) = 1 then 0 else p.val; rw [if_neg (by decide)]
    | ⟨1, _⟩ => by show 0 = if (1 : Nat) = 1 then 0 else k.val; rw [if_pos rfl])).trans (pay3_at v p)

/-- The axis: each component of row `p` divided by the row's angle. -/
theorem pay4_at (k : Fin 3) : k0_pay4 (F := Ideal) v (ix2 p k) = axis (rowOf v p) k := by
  unfold k0_pay4 axis
  exact congrArg₂ Ideal.div (pay2_at v p k) (bcast_angle_at v p k)

/-- Column `q` of the axis array, as a [4096, 1] column read at row `p`. -/
theorem column_at (q : Fin 3) (h : S4096x3.Slices ![0, q.val] S4096x1) :
    extractStridedSlice S4096x1 ![0, q.val] (k0_pay4 (F := Ideal) v) h (ix2 p (0 : Fin 1)) = axis (rowOf v p) q :=
  (extractStridedSlice_apply ![0, q.val] _ h (ix2 p (0 : Fin 1)) (ix2 p q) (fun a => match a with
    | ⟨0, _⟩ => by show p.val = 0 + p.val; omega
    | ⟨1, _⟩ => by show q.val = q.val + 0; omega)).trans (pay4_at v p q)

theorem pay5_at : k0_pay5 (F := Ideal) v (ix2 p (0 : Fin 1)) = axis (rowOf v p) 0 := column_at v p 0 slices_S4096x3_o0_0_S4096x1
theorem pay6_at : k0_pay6 (F := Ideal) v (ix2 p (0 : Fin 1)) = axis (rowOf v p) 1 := column_at v p 1 slices_S4096x3_o0_1_S4096x1
theorem pay7_at : k0_pay7 (F := Ideal) v (ix2 p (0 : Fin 1)) = axis (rowOf v p) 2 := column_at v p 2 slices_S4096x3_o0_2_S4096x1

/-- The sine of the angle. -/
theorem pay8_at : k0_pay8 (F := Ideal) v (ix2 p (0 : Fin 1)) = sn (rowOf v p) :=
  congrArg Ideal.sin (pay3_at v p)

/-- One minus the cosine of the angle. -/
theorem pay9_at : k0_pay9 (F := Ideal) v (ix2 p (0 : Fin 1)) = vers (rowOf v p) := by
  unfold k0_pay9 vers
  show Ideal.ofBits .f32 0x3F800000#32 - Ideal.cos (k0_pay3 v (ix2 p (0 : Fin 1))) = _
  rw [Ideal.ofBits_one_f32, pay3_at]

/-- The products of two axis components, of an axis component and the sine, and the squares. -/
theorem pay10_at : k0_pay10 (F := Ideal) v (ix2 p (0 : Fin 1)) = axis (rowOf v p) 0 * axis (rowOf v p) 1 :=
  congrArg₂ (· * ·) (pay5_at v p) (pay6_at v p)
theorem pay11_at : k0_pay11 (F := Ideal) v (ix2 p (0 : Fin 1)) = axis (rowOf v p) 0 * axis (rowOf v p) 2 :=
  congrArg₂ (· * ·) (pay5_at v p) (pay7_at v p)
theorem pay12_at : k0_pay12 (F := Ideal) v (ix2 p (0 : Fin 1)) = axis (rowOf v p) 1 * axis (rowOf v p) 2 :=
  congrArg₂ (· * ·) (pay6_at v p) (pay7_at v p)
theorem pay13_at : k0_pay13 (F := Ideal) v (ix2 p (0 : Fin 1)) = axis (rowOf v p) 0 * sn (rowOf v p) :=
  congrArg₂ (· * ·) (pay5_at v p) (pay8_at v p)
theorem pay14_at : k0_pay14 (F := Ideal) v (ix2 p (0 : Fin 1)) = axis (rowOf v p) 1 * sn (rowOf v p) :=
  congrArg₂ (· * ·) (pay6_at v p) (pay8_at v p)
theorem pay15_at : k0_pay15 (F := Ideal) v (ix2 p (0 : Fin 1)) = axis (rowOf v p) 2 * sn (rowOf v p) :=
  congrArg₂ (· * ·) (pay7_at v p) (pay8_at v p)
theorem pay16_at : k0_pay16 (F := Ideal) v (ix2 p (0 : Fin 1)) = axis (rowOf v p) 0 * axis (rowOf v p) 0 :=
  congrArg₂ (· * ·) (pay5_at v p) (pay5_at v p)
theorem pay17_at : k0_pay17 (F := Ideal) v (ix2 p (0 : Fin 1)) = axis (rowOf v p) 1 * axis (rowOf v p) 1 :=
  congrArg₂ (· * ·) (pay6_at v p) (pay6_at v p)
theorem pay18_at : k0_pay18 (F := Ideal) v (ix2 p (0 : Fin 1)) = axis (rowOf v p) 2 * axis (rowOf v p) 2 :=
  congrArg₂ (· * ·) (pay7_at v p) (pay7_at v p)

/-- The five entries computed before the concatenation's own arithmetic: (0,0), (0,1), (0,2), (1,0), (1,1). -/
theorem pay19_at : k0_pay19 (F := Ideal) v (ix2 p (0 : Fin 1)) = entry (rowOf v p) 0 := by
  unfold k0_pay19
  show Ideal.ofBits .f32 0x3F800000#32 + (Ideal.ofBits .f32 0x00000000#32 - k0_pay18 v (ix2 p (0 : Fin 1)) - k0_pay17 v (ix2 p (0 : Fin 1))) * k0_pay9 v (ix2 p (0 : Fin 1)) = _
  rw [Ideal.ofBits_one_f32, Ideal.ofBits_zero_f32, pay18_at, pay17_at, pay9_at]; rfl
theorem pay20_at : k0_pay20 (F := Ideal) v (ix2 p (0 : Fin 1)) = entry (rowOf v p) 1 := by
  unfold k0_pay20
  show (Ideal.ofBits .f32 0x00000000#32 - k0_pay15 v (ix2 p (0 : Fin 1))) + k0_pay10 v (ix2 p (0 : Fin 1)) * k0_pay9 v (ix2 p (0 : Fin 1)) = _
  rw [Ideal.ofBits_zero_f32, pay15_at, pay10_at, pay9_at]; rfl
theorem pay21_at : k0_pay21 (F := Ideal) v (ix2 p (0 : Fin 1)) = entry (rowOf v p) 2 := by
  unfold k0_pay21
  show k0_pay14 v (ix2 p (0 : Fin 1)) + k0_pay11 v (ix2 p (0 : Fin 1)) * k0_pay9 v (ix2 p (0 : Fin 1)) = _
  rw [pay14_at, pay11_at, pay9_at]; rfl
theorem pay22_at : k0_pay22 (F := Ideal) v (ix2 p (0 : Fin 1)) = entry (rowOf v p) 3 := by
  unfold k0_pay22
  show k0_pay15 v (ix2 p (0 : Fin 1)) + k0_pay10 v (ix2 p (0 : Fin 1)) * k0_pay9 v (ix2 p (0 : Fin 1)) = _
  rw [pay15_at, pay10_at, pay9_at]; rfl
theorem pay23_at : k0_pay23 (F := Ideal) v (ix2 p (0 : Fin 1)) = entry (rowOf v p) 4 := by
  unfold k0_pay23
  show Ideal.ofBits .f32 0x3F800000#32 + (Ideal.ofBits .f32 0x00000000#32 - k0_pay18 v (ix2 p (0 : Fin 1)) - k0_pay16 v (ix2 p (0 : Fin 1))) * k0_pay9 v (ix2 p (0 : Fin 1)) = _
  rw [Ideal.ofBits_one_f32, Ideal.ofBits_zero_f32, pay18_at, pay16_at, pay9_at]; rfl
/-- The opposite of `a 0 · sin θ`, which entry (1,2) starts from. -/
theorem pay24_at : k0_pay24 (F := Ideal) v (ix2 p (0 : Fin 1)) = 0 - axis (rowOf v p) 0 * sn (rowOf v p) := by
  unfold k0_pay24
  show Ideal.ofBits .f32 0x00000000#32 - k0_pay13 v (ix2 p (0 : Fin 1)) = _
  rw [Ideal.ofBits_zero_f32, pay13_at]

/-- A concatenation along the row of [4096, 1] columns, read at `(p, e)`: column `e` at row `p`. -/
theorem columns_at (xs : List ((s : Shape) × (s.Idx → EReal))) (h : Shape.Concatenates (xs.map (·.1)) S4096x9 1)
    (e : Fin 9) (hlen : xs.length = 9) (x₁ : S4096x1.Idx → EReal) (hx : xs[e.val]'(Nat.lt_of_lt_of_eq e.isLt hlen.symm) = ⟨S4096x1, x₁⟩)
    (hpre : (((xs.take e.val).map (·.1)).map fun s => if h : s.rank = S4096x9.rank then s.size ((1 : Fin S4096x9.rank).cast h.symm) else 0).sum = e.val) :
    concatenate S4096x9 1 xs h (ix2 p e) = x₁ (ix2 p (0 : Fin 1)) :=
  concatenate_apply_piece (1 : Fin S4096x9.rank) xs h (ix2 p e) e.val (Nat.lt_of_lt_of_eq e.isLt hlen.symm) S4096x1 x₁ hx rfl e.val hpre (ix2 p (0 : Fin 1))
    (fun b hb => match b, hb with | ⟨0, _⟩, _ => rfl | ⟨1, _⟩, hb => absurd rfl hb) (by show e.val + 0 = e.val; omega)

/-- The nine columns the body stores, as one function of the loaded block. -/
abbrev stored (v : Vec Ideal S4096x3 .f32) : FVec Ideal S4096x9 .f32 :=
  k0_pay1 (F := Ideal) (k0_pay9 v) (k0_pay11 v) (k0_pay12 v) (k0_pay13 v) (k0_pay14 v) (k0_pay16 v) (k0_pay17 v) (k0_pay19 v)
    (k0_pay20 v) (k0_pay21 v) (k0_pay22 v) (k0_pay23 v) (k0_pay24 v)

theorem stored_at0 : stored v (ix2 p (0 : Fin 9)) = entry (rowOf v p) 0 := by
  unfold stored k0_pay1
  exact (columns_at p _ _ 0 rfl _ rfl rfl).trans (pay19_at v p)
theorem stored_at1 : stored v (ix2 p (1 : Fin 9)) = entry (rowOf v p) 1 := by
  unfold stored k0_pay1
  exact (columns_at p _ _ 1 rfl _ rfl rfl).trans (pay20_at v p)
theorem stored_at2 : stored v (ix2 p (2 : Fin 9)) = entry (rowOf v p) 2 := by
  unfold stored k0_pay1
  exact (columns_at p _ _ 2 rfl _ rfl rfl).trans (pay21_at v p)
theorem stored_at3 : stored v (ix2 p (3 : Fin 9)) = entry (rowOf v p) 3 := by
  unfold stored k0_pay1
  exact (columns_at p _ _ 3 rfl _ rfl rfl).trans (pay22_at v p)
theorem stored_at4 : stored v (ix2 p (4 : Fin 9)) = entry (rowOf v p) 4 := by
  unfold stored k0_pay1
  exact (columns_at p _ _ 4 rfl _ rfl rfl).trans (pay23_at v p)
theorem stored_at5 : stored v (ix2 p (5 : Fin 9)) = entry (rowOf v p) 5 := by
  unfold stored k0_pay1
  refine (columns_at p _ _ 5 rfl _ rfl rfl).trans ?_
  show k0_pay24 v (ix2 p (0 : Fin 1)) + k0_pay12 v (ix2 p (0 : Fin 1)) * k0_pay9 v (ix2 p (0 : Fin 1)) = _
  rw [pay24_at, pay12_at, pay9_at]; rfl
theorem stored_at6 : stored v (ix2 p (6 : Fin 9)) = entry (rowOf v p) 6 := by
  unfold stored k0_pay1
  refine (columns_at p _ _ 6 rfl _ rfl rfl).trans ?_
  show (Ideal.ofBits .f32 0x00000000#32 - k0_pay14 v (ix2 p (0 : Fin 1))) + k0_pay11 v (ix2 p (0 : Fin 1)) * k0_pay9 v (ix2 p (0 : Fin 1)) = _
  rw [Ideal.ofBits_zero_f32, pay14_at, pay11_at, pay9_at]; rfl
theorem stored_at7 : stored v (ix2 p (7 : Fin 9)) = entry (rowOf v p) 7 := by
  unfold stored k0_pay1
  refine (columns_at p _ _ 7 rfl _ rfl rfl).trans ?_
  show k0_pay13 v (ix2 p (0 : Fin 1)) + k0_pay12 v (ix2 p (0 : Fin 1)) * k0_pay9 v (ix2 p (0 : Fin 1)) = _
  rw [pay13_at, pay12_at, pay9_at]; rfl
theorem stored_at8 : stored v (ix2 p (8 : Fin 9)) = entry (rowOf v p) 8 := by
  unfold stored k0_pay1
  refine (columns_at p _ _ 8 rfl _ rfl rfl).trans ?_
  show Ideal.ofBits .f32 0x3F800000#32 + (Ideal.ofBits .f32 0x00000000#32 - k0_pay17 v (ix2 p (0 : Fin 1)) - k0_pay16 v (ix2 p (0 : Fin 1))) * k0_pay9 v (ix2 p (0 : Fin 1)) = _
  rw [Ideal.ofBits_one_f32, Ideal.ofBits_zero_f32, pay17_at, pay16_at, pay9_at]; rfl

/-- What the body stores at `(p, e)` is entry `e` of the rotation matrix of row `p` of the block it loaded. -/
theorem stored_at (e : Fin 9) : stored v (ix2 p e) = entry (rowOf v p) e := by
  fin_cases e
  exacts [stored_at0 v p, stored_at1 v p, stored_at2 v p, stored_at3 v p, stored_at4 v p, stored_at5 v p, stored_at6 v p,
    stored_at7 v p, stored_at8 v p]

end Cert.KernelIdeal.RowValue
end
-- ==== Proof.KernelArray.lean ====
/-
  From blocks to the array, and the two regroupings around the region.

  The region reads a [8388608, 3] array and writes a [8388608, 9] array through blocks of 4096 rows: at grid point
  `t` both windows are at block `(t, 0)`, so the block loaded is rows `4096·t … 4096·t + 4095` of the input and the
  block written back is the same rows of the output. What the body stores at row `p` depends on row `p` of the
  loaded block alone (Proof/KernelRow.lean), so point `t` writes back block `t` of ONE row-wise function of the input
  array, `rowsOut` (`written_back`); every row lies in the block of point `row / 4096` (`rows_covered`); hence the region
  leaves `rowsOut` of the array it reads (`region_array`).

  The host line before the region regroups the [4096, 2048, 3] argument as [8388608, 3]: twist `(b, r)` becomes row
  `2048·b + r` (`entry_array`). The host line after it regroups [8388608, 9] as [4096, 2048, 3, 3]: position
  `3·i + j` of that row becomes `(b, r, i, j)` (`tail_result`). Between the two, the row-wise function is
  `Cert.Rodrigues.rotations` (`regroup`), which is what the program's run ends with (`run`).
-/
import proofs.«135314_j48696339202533_2_alg».proof.Proof.Gen.KernelIdeal.Frame
import proofs.«135314_j48696339202533_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.RowValue Idealize.ShloMosaic.ValueIdx Cert.Rodrigues

variable (m : (ℓ : Loc nD τ sig) → Buf (Elt Ideal) ℓ) (ρ : Dev nD → PrngReg)

/-- The [8388608, 9] array the region writes, as one function of the [8388608, 3] array it reads: row `n` of the
    output holds the nine entries of the rotation matrix of row `n` of the input. -/
def rowsOut (xin : S8388608x3.Idx → EReal) : S8388608x9.Idx → EReal :=
  fun i => entry (fun k => xin (ix2 (i 0) k)) (i 1)

theorem zero_offsets : (![0, 0] : Fin 2 → Nat) = fun _ => 0 := funext fun a => by fin_cases a <;> rfl

/-- The printed index maps over the grid: at point `t` both windows are at block `(t, 0)`. -/
theorem block_of_point : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 2048 := by
  exact Nat.lt_of_lt_of_eq t.isLt (show cfg0.N = 2048 from N_0)

/-- The input window's block at point `t` is rows `4096·t … 4096·t + 4095` of the array the region reads. -/
theorem loaded_rows (c : Dev nD) (t : Fin cfg0.N) (p : Fin 4096) (k : Fin 3) (n : Fin 8388608)
    (hn : n.val = t.val * 4096 + p.val) :
    (iblk m c 0 t : Vec Ideal S4096x3 .f32) (ix2 p k) = (V m c main_v0 : S8388608x3.Idx → EReal) (ix2 n k) := by
  obtain ⟨e00, e01, -, -⟩ := block_of_point t
  unfold iblk
  rw [View.read_apply]
  show V m c main_v0 _ = V m c main_v0 _
  refine congrArg (V m c main_v0) (funext fun a => Fin.ext ?_)
  match a with
  | ⟨0, _⟩ => show win0_0.index t (0 : Fin 2) * 4096 + 1 * p.val = n.val; rw [e00, hn]; omega
  | ⟨1, _⟩ => show win0_0.index t (1 : Fin 2) * 3 + 1 * k.val = k.val; rw [e01]; omega

/-- WHAT POINT `t` WRITES BACK is block `t` of `rowsOut` of the array the region reads. -/
theorem written_back (c : Dev nD) (t : Fin cfg0.N) :
    (dats m 0 c).flushed 1 t = ((cfg0.win 1).blk t).view.read (Elt Ideal) (rowsOut (V m c main_v0)) := by
  show (cfg0.win 1).cut (grid0.coords t) ((dats m 0 c).after 1 t) = _
  rw [after0_1]
  unfold out0_1
  rw [View.canon_unit_zero zero_offsets]
  simp only [View.ld_unit_zero (S := S4096x3) zero_offsets]
  obtain ⟨-, -, e10, e11⟩ := block_of_point t
  have ht := point_lt t
  funext j
  obtain ⟨p, e, rfl⟩ : ∃ (p : Fin 4096) (e : Fin 9), j = ix2 p e := ⟨j 0, j 1, eq_ix2 j⟩
  show stored (iblk m c 0 t) (ix2 p e) = rowsOut (V m c main_v0) (((cfg0.win 1).blk t).view.emb (ix2 p e))
  rw [stored_at]
  have h1 : ((cfg0.win 1).blk t).view.emb (ix2 p e) = ix2 (⟨t.val * 4096 + p.val, by have := p.isLt; omega⟩ : Fin 8388608) e :=
    funext fun a => Fin.ext (by
      match a with
      | ⟨0, _⟩ => show win0_1.index t (0 : Fin 2) * 4096 + 1 * p.val = t.val * 4096 + p.val; rw [e10]; omega
      | ⟨1, _⟩ => show win0_1.index t (1 : Fin 2) * 9 + 1 * e.val = e.val; rw [e11]; omega)
  rw [h1]
  show entry (rowOf (iblk m c 0 t) p) e = entry (fun k => (V m c main_v0 : S8388608x3.Idx → EReal) (ix2 (⟨t.val * 4096 + p.val, _⟩ : Fin 8388608) k)) e
  refine congrArg (fun x => entry x e) (funext fun k => ?_)
  exact loaded_rows m c t p k _ rfl

/-- An index of the written array is in point `t`'s block iff each coordinate is in the block's range on its axis. -/
theorem mem_block_iff (t : Fin cfg0.N) (i : S8388608x9.Idx) :
    i ∈ ((cfg0.win 1).blk t).view.set ↔ ∀ a : Fin 2, win0_1.index t a * S4096x9.size a ≤ (i a).val ∧ (i a).val < win0_1.index t a * S4096x9.size a + S4096x9.size a := by
  show i ∈ ((View.whole main_v1).slice (win0_1.rect t)).set ↔ _
  rw [View.set_slice_whole, Rect.mem_set_unit]
  exact Iff.rfl

/-- Every row `n` of the written array is in the block of point `n / 4096`, which writes back. -/
theorem rows_covered (i : S8388608x9.Idx) : ∃ t : Fin cfg0.N, (cfg0.win 1).flush t = true ∧ i ∈ ((cfg0.win 1).blk t).view.set := by
  have hi0 : (i 0).val < 8388608 := (i 0).isLt
  have hi1 : (i 1).val < 9 := (i 1).isLt
  obtain ⟨t, ht⟩ : ∃ t : Fin cfg0.N, t.val = (i 0).val / 4096 :=
    ⟨⟨(i 0).val / 4096, by rw [show cfg0.N = 2048 from N_0]; omega⟩, rfl⟩
  obtain ⟨-, -, e10, e11⟩ := block_of_point t
  refine ⟨t, flush0_1 t, ?_⟩
  rw [mem_block_iff]
  intro a
  match a with
  | ⟨0, _⟩ => show win0_1.index t (0 : Fin 2) * 4096 ≤ (i 0).val ∧ (i 0).val < win0_1.index t (0 : Fin 2) * 4096 + 4096; rw [e10, ht]; omega
  | ⟨1, _⟩ => show win0_1.index t (1 : Fin 2) * 9 ≤ (i 1).val ∧ (i 1).val < win0_1.index t (1 : Fin 2) * 9 + 9; rw [e11]; omega

/-- THE ARRAY the region leaves: `rowsOut` of the array it reads. -/
theorem region_array (c : Dev nD) : (dats m 0 c).arrAt 1 cfg0.N = rowsOut (V m c main_v0) :=
  (dats m 0 c).arrAt_eq_of_cover 1 (rowsOut (V m c main_v0)) (fun t _ => written_back m c t) rows_covered

/-- The array the region reads is the argument regrouped as [8388608, 3] by the host line before the region. -/
theorem entry_array (c : Dev nD) :
    (V m c main_v0 : S8388608x3.Idx → EReal) = shapeCast S8388608x3 (m ((c : Thread nD τ).loc main_arg0)) shapeCasts_S4096x2048x3_S8388608x3 := by
  show StableHlo.after hostOps0 (fun b => m (c, b)) (Proc.devRef .tc main_v0) = _
  after_results
  rfl

/-- The result is the written array regrouped as [4096, 2048, 3, 3] by the host line after the region. -/
theorem tail_result (c : Dev nD) :
    Pipeline.afterTail₀ cfgs (dats m) 0 (V0 m) [hostOps1] c main_v2
      = shapeCast S4096x2048x3x3 ((dats m 0 c).arrAt 1 cfg0.N) shapeCasts_S8388608x9_S4096x2048x3x3 := by
  unfold Pipeline.afterTail₀
  show StableHlo.after hostOps1 _ (Proc.devRef .tc main_v2) = _
  after_results
  have h := Pipeline.withArrays_arr spec0 launch0.win.arr_inj c (V0 m c) (fun w => (dats m 0 c).arrAt w cfg0.N) 1
  exact congrArg (fun x => shapeCast S4096x2048x3x3 x shapeCasts_S8388608x9_S4096x2048x3x3) h

/-- Regrouping [4096, 2048, 3] as [8388608, 3] sends twist `(b, r)` to row `2048·b + r`, and regrouping
    [8388608, 9] as [4096, 2048, 3, 3] sends entry `3·i + j` of that row to `(b, r, i, j)`: the row-wise function
    between the two regroupings is `rotations`. -/
theorem regroup (x0 : S4096x2048x3.Idx → EReal) :
    shapeCast S4096x2048x3x3 (rowsOut (shapeCast S8388608x3 x0 shapeCasts_S4096x2048x3_S8388608x3))
      shapeCasts_S8388608x9_S4096x2048x3x3 = rotations x0 := by
  funext i
  obtain ⟨b, r, p, q, rfl⟩ : ∃ (b : Fin 4096) (r : Fin 2048) (p q : Fin 3), i = ix4 b r p q := ⟨i 0, i 1, i 2, i 3, eq_ix4 i⟩
  have hb := b.isLt; have hr := r.isLt; have hp := p.isLt; have hq := q.isLt
  refine (shapeCast_apply _ shapeCasts_S8388608x9_S4096x2048x3x3 (ix4 b r p q)
    (ix2 (⟨b.val * 2048 + r.val, by omega⟩ : Fin 8388608) (flat p q))
    (by rw [Shape.rowMajor_val_two, Shape.rowMajor_val_four]
        show (b.val * 2048 + r.val) * 9 + (3 * p.val + q.val) = ((b.val * 2048 + r.val) * 3 + p.val) * 3 + q.val
        omega)).trans ?_
  show entry (fun k => shapeCast S8388608x3 x0 shapeCasts_S4096x2048x3_S8388608x3 (ix2 (⟨b.val * 2048 + r.val, _⟩ : Fin 8388608) k)) (flat p q)
    = entry (fun k => x0 (ix3 b r k)) (flat p q)
  refine congrArg (fun x => entry x (flat p q)) (funext fun k => ?_)
  exact shapeCast_apply x0 shapeCasts_S4096x2048x3_S8388608x3 (ix2 (⟨b.val * 2048 + r.val, by omega⟩ : Fin 8388608) k) (ix3 b r k)
    (by rw [Shape.rowMajor_val_three, Shape.rowMajor_val_two]
        show (b.val * 2048 + r.val) * 3 + k.val = (b.val * 2048 + r.val) * 3 + k.val
        rfl)

/-- The kernel program's result: `rotations` of its argument. -/
theorem value (c : Dev nD) :
    Pipeline.afterTail₀ cfgs (dats m) 0 (V0 m) [hostOps1] c main_v2 = rotations (m ((c : Thread nD τ).loc main_arg0)) := by
  rw [tail_result, region_array, entry_array]
  exact regroup _

/-- The run, read: the result array at `rotations` of the argument, the argument unchanged. -/
theorem run : θ_run defs (onTc (τ := τ) (main (F := Ideal))) ⟨m, fun _ => 0, ρ⟩ fun r => ∀ c : Dev nD,
      r.2.mem ((c.tc : Thread nD τ).loc main_v2) = rotations (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (value m c),
       ((h c).2 main_arg0 (Pipeline.mem_restRefs_of main_arg0 (by decide) (by decide))).trans (W_main_arg0 m (dats m) c)⟩)
    (run_main m ρ)

end Cert.KernelIdeal.ArrayValue
end
-- ==== Proof.ReferenceValue.lean ====
/-
  What the reference computes, read at one index.

  The reference takes the norm of each twist `(b, r)` of a [4096, 2048, 3] array, clamps it from below (the angle),
  divides the twist by it (the axis), lays the nine entries of the axis' cross-product matrix `A` side by side
  and regroups them as 3 × 3, and returns `I + A · sin θ + (A A) · (1 - cos θ)` with `A A` a batched matrix
  product and `I` a comparison of two iotas.

  Each lemma reads one stage at the indices built from `(b, r)` (and `(i, j)`), through the generated
  one-operation reading lemmas; the nine-way concatenation, which those do not read, is read here
  (`pieces_at`). At `(b, r, i, j)` the result is `Cert.Rodrigues.matrixEntry` of the twist, which is the
  written-out entry `Cert.Rodrigues.entry` (`matrixEntry_eq_entry`): the reference computes
  `Cert.Rodrigues.rotations` of its argument (`reference_eq`).
-/
import proofs.«135314_j48696339202533_2_alg».proof.Proof.Gen.ReferenceIdeal.Read
import proofs.«135314_j48696339202533_2_alg».proof.Proof.Rodrigues
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Rodrigues

/-- Twist `(b, r)` of the argument array. -/
def row (x0 : S4096x2048x3.Idx → EReal) (b : Fin 4096) (r : Fin 2048) : Fin 3 → EReal := fun k => x0 (ix3 b r k)

variable (x0 : S4096x2048x3.Idx → EReal) (b : Fin 4096) (r : Fin 2048)

/-- The clamped norm of twist `(b, r)`: the host's sum starts from the zero word, which adds nothing. -/
theorem angle_at : val_main_v2 (F := Ideal) x0 (ix3 b r (0 : Fin 1)) = angle (row x0 b r) := by
  rw [val_main_v2_apply, val_main_v0_apply, val_main_call0_v2_apply, val_main_call0_v1_apply, val_main_v1_apply,
    val_main_cst_apply, val_main_call0_cst_apply]
  have e : ∀ k : Fin 3, idx_main_call0_v1 (idx_main_call0_v2 (ix3 b r (0 : Fin 1))) k = ix3 b r k := fun k =>
    funext fun a => Fin.ext (by match a with | ⟨0, _⟩ => rfl | ⟨1, _⟩ => rfl | ⟨2, _⟩ => rfl)
  simp only [e, val_main_call0_v0_apply, Ideal.maximumf_def, Ideal.hostUnary_sqrt_def, Ideal.ofBits_def, Ideal.mulf_def,
    Ideal.ofBits_zero_f32, zero_add]
  rfl

/-- The axis: each component of the twist divided by its angle. -/
theorem axis_at (k : Fin 3) : val_main_v4 (F := Ideal) x0 (ix3 b r k) = axis (row x0 b r) k := by
  rw [val_main_v4_apply, val_main_v3_apply]
  have e : idx_main_v3 (ix3 b r k) = ix3 b r (0 : Fin 1) :=
    funext fun a => Fin.ext (by match a with | ⟨0, _⟩ => rfl | ⟨1, _⟩ => rfl | ⟨2, _⟩ => rfl)
  rw [e, angle_at]
  rfl

/-- The three components as [4096, 2048] arrays. -/
theorem a0_at : val_main_v6 (F := Ideal) x0 (ix2 b r) = axis (row x0 b r) 0 := by
  rw [val_main_v6_apply, val_main_v5_apply]
  have e : idx_main_v5 (idx_main_v6 (ix2 b r)) = ix3 b r (0 : Fin 3) := funext fun a => Fin.ext (by
    have hb := b.isLt; have hr := r.isLt
    match a with
    | ⟨0, _⟩ => show (b.val * 2048 + r.val) / 2048 = b.val; omega
    | ⟨1, _⟩ => show (b.val * 2048 + r.val) / 1 % 2048 = r.val; omega
    | ⟨2, _⟩ => rfl)
  rw [e, axis_at]
theorem a1_at : val_main_v8 (F := Ideal) x0 (ix2 b r) = axis (row x0 b r) 1 := by
  rw [val_main_v8_apply, val_main_v7_apply]
  have e : idx_main_v7 (idx_main_v8 (ix2 b r)) = ix3 b r (1 : Fin 3) := funext fun a => Fin.ext (by
    have hb := b.isLt; have hr := r.isLt
    match a with
    | ⟨0, _⟩ => show (b.val * 2048 + r.val) / 2048 = b.val; omega
    | ⟨1, _⟩ => show (b.val * 2048 + r.val) / 1 % 2048 = r.val; omega
    | ⟨2, _⟩ => rfl)
  rw [e, axis_at]
theorem a2_at : val_main_v10 (F := Ideal) x0 (ix2 b r) = axis (row x0 b r) 2 := by
  rw [val_main_v10_apply, val_main_v9_apply]
  have e : idx_main_v9 (idx_main_v10 (ix2 b r)) = ix3 b r (2 : Fin 3) := funext fun a => Fin.ext (by
    have hb := b.isLt; have hr := r.isLt
    match a with
    | ⟨0, _⟩ => show (b.val * 2048 + r.val) / 2048 = b.val; omega
    | ⟨1, _⟩ => show (b.val * 2048 + r.val) / 1 % 2048 = r.val; omega
    | ⟨2, _⟩ => rfl)
  rw [e, axis_at]

/-- A [4096, 2048] array given a trailing unit axis, read at `(b, r, 0)`. -/
theorem unit_axis_idx (f : S4096x2048x1.Idx → S4096x2048.Idx)
    (h0 : ∀ i, ((f i) 0).val = (i 0).val) (h1 : ∀ i, ((f i) 1).val = (i 1).val) :
    f (ix3 b r (0 : Fin 1)) = ix2 b r :=
  funext fun a => Fin.ext (by match a with | ⟨0, _⟩ => exact h0 _ | ⟨1, _⟩ => exact h1 _)

/-- The nine pieces of the cross-product matrix, each a [4096, 2048, 1] array read at `(b, r, 0)`. -/
theorem piece0_at : val_main_v15 (F := Ideal) (ix3 b r (0 : Fin 1)) = skew (row x0 b r) 0 := by
  rw [val_main_v15_apply, val_main_v11_apply, val_main_cst_0_apply]; exact Ideal.ofBits_zero_f32
theorem piece1_at : val_main_v16 (F := Ideal) x0 (ix3 b r (0 : Fin 1)) = skew (row x0 b r) 1 := by
  rw [val_main_v16_apply, unit_axis_idx b r idx_main_v16 (fun _ => rfl) (fun _ => rfl), val_main_v12_apply, a2_at]; rfl
theorem piece2_at : val_main_v17 (F := Ideal) x0 (ix3 b r (0 : Fin 1)) = skew (row x0 b r) 2 := by
  rw [val_main_v17_apply, unit_axis_idx b r idx_main_v17 (fun _ => rfl) (fun _ => rfl), a1_at]; rfl
theorem piece3_at : val_main_v18 (F := Ideal) x0 (ix3 b r (0 : Fin 1)) = skew (row x0 b r) 3 := by
  rw [val_main_v18_apply, unit_axis_idx b r idx_main_v18 (fun _ => rfl) (fun _ => rfl), a2_at]; rfl
theorem piece4_at : val_main_v19 (F := Ideal) (ix3 b r (0 : Fin 1)) = skew (row x0 b r) 4 := by
  rw [val_main_v19_apply, val_main_v11_apply, val_main_cst_0_apply]; exact Ideal.ofBits_zero_f32
theorem piece5_at : val_main_v20 (F := Ideal) x0 (ix3 b r (0 : Fin 1)) = skew (row x0 b r) 5 := by
  rw [val_main_v20_apply, unit_axis_idx b r idx_main_v20 (fun _ => rfl) (fun _ => rfl), val_main_v13_apply, a0_at]; rfl
theorem piece6_at : val_main_v21 (F := Ideal) x0 (ix3 b r (0 : Fin 1)) = skew (row x0 b r) 6 := by
  rw [val_main_v21_apply, unit_axis_idx b r idx_main_v21 (fun _ => rfl) (fun _ => rfl), val_main_v14_apply, a1_at]; rfl
theorem piece7_at : val_main_v22 (F := Ideal) x0 (ix3 b r (0 : Fin 1)) = skew (row x0 b r) 7 := by
  rw [val_main_v22_apply, unit_axis_idx b r idx_main_v22 (fun _ => rfl) (fun _ => rfl), a0_at]; rfl
theorem piece8_at : val_main_v23 (F := Ideal) (ix3 b r (0 : Fin 1)) = skew (row x0 b r) 8 := by
  rw [val_main_v23_apply, val_main_v11_apply, val_main_cst_0_apply]; exact Ideal.ofBits_zero_f32

/-- A concatenation along the last axis of [4096, 2048, 1] arrays, read at `(b, r, e)`: piece `e` at `(b, r, 0)`. -/
theorem pieces_at (xs : List ((s : Shape) × (s.Idx → EReal))) (h : Shape.Concatenates (xs.map (·.1)) S4096x2048x9 2)
    (e : Fin 9) (hlen : xs.length = 9) (x₁ : S4096x2048x1.Idx → EReal)
    (hx : xs[e.val]'(Nat.lt_of_lt_of_eq e.isLt hlen.symm) = ⟨S4096x2048x1, x₁⟩)
    (hpre : (((xs.take e.val).map (·.1)).map fun s => if h : s.rank = S4096x2048x9.rank then s.size ((2 : Fin S4096x2048x9.rank).cast h.symm) else 0).sum = e.val) :
    concatenate S4096x2048x9 2 xs h (ix3 b r e) = x₁ (ix3 b r (0 : Fin 1)) :=
  concatenate_apply_piece (2 : Fin S4096x2048x9.rank) xs h (ix3 b r e) e.val (Nat.lt_of_lt_of_eq e.isLt hlen.symm) S4096x2048x1 x₁ hx rfl
    e.val hpre (ix3 b r (0 : Fin 1))
    (fun c hc => match c, hc with | ⟨0, _⟩, _ => rfl | ⟨1, _⟩, _ => rfl | ⟨2, _⟩, hc => absurd rfl hc)
    (by show e.val + 0 = e.val; omega)

/-- The cross-product matrix of twist `(b, r)`, row-major, as the [4096, 2048, 9] array the pieces are joined into. -/
theorem skew_at0 : val_main_v24 (F := Ideal) x0 (ix3 b r (0 : Fin 9)) = skew (row x0 b r) 0 := by
  unfold val_main_v24; exact (pieces_at b r _ _ 0 rfl _ rfl rfl).trans (piece0_at x0 b r)
theorem skew_at1 : val_main_v24 (F := Ideal) x0 (ix3 b r (1 : Fin 9)) = skew (row x0 b r) 1 := by
  unfold val_main_v24; exact (pieces_at b r _ _ 1 rfl _ rfl rfl).trans (piece1_at x0 b r)
theorem skew_at2 : val_main_v24 (F := Ideal) x0 (ix3 b r (2 : Fin 9)) = skew (row x0 b r) 2 := by
  unfold val_main_v24; exact (pieces_at b r _ _ 2 rfl _ rfl rfl).trans (piece2_at x0 b r)
theorem skew_at3 : val_main_v24 (F := Ideal) x0 (ix3 b r (3 : Fin 9)) = skew (row x0 b r) 3 := by
  unfold val_main_v24; exact (pieces_at b r _ _ 3 rfl _ rfl rfl).trans (piece3_at x0 b r)
theorem skew_at4 : val_main_v24 (F := Ideal) x0 (ix3 b r (4 : Fin 9)) = skew (row x0 b r) 4 := by
  unfold val_main_v24; exact (pieces_at b r _ _ 4 rfl _ rfl rfl).trans (piece4_at x0 b r)
theorem skew_at5 : val_main_v24 (F := Ideal) x0 (ix3 b r (5 : Fin 9)) = skew (row x0 b r) 5 := by
  unfold val_main_v24; exact (pieces_at b r _ _ 5 rfl _ rfl rfl).trans (piece5_at x0 b r)
theorem skew_at6 : val_main_v24 (F := Ideal) x0 (ix3 b r (6 : Fin 9)) = skew (row x0 b r) 6 := by
  unfold val_main_v24; exact (pieces_at b r _ _ 6 rfl _ rfl rfl).trans (piece6_at x0 b r)
theorem skew_at7 : val_main_v24 (F := Ideal) x0 (ix3 b r (7 : Fin 9)) = skew (row x0 b r) 7 := by
  unfold val_main_v24; exact (pieces_at b r _ _ 7 rfl _ rfl rfl).trans (piece7_at x0 b r)
theorem skew_at8 : val_main_v24 (F := Ideal) x0 (ix3 b r (8 : Fin 9)) = skew (row x0 b r) 8 := by
  unfold val_main_v24; exact (pieces_at b r _ _ 8 rfl _ rfl rfl).trans (piece8_at x0 b r)

theorem skew_at (e : Fin 9) : val_main_v24 (F := Ideal) x0 (ix3 b r e) = skew (row x0 b r) e := by
  fin_cases e
  exacts [skew_at0 x0 b r, skew_at1 x0 b r, skew_at2 x0 b r, skew_at3 x0 b r, skew_at4 x0 b r, skew_at5 x0 b r,
    skew_at6 x0 b r, skew_at7 x0 b r, skew_at8 x0 b r]

/-- The same matrix as a [4096, 2048, 3, 3] array: entry `(i, j)` sits at position `3·i + j` of the nine. -/
theorem matrix_at (i j : Fin 3) : val_main_v25 (F := Ideal) x0 (ix4 b r i j) = skew (row x0 b r) (flat i j) := by
  rw [val_main_v25_apply]
  have e : idx_main_v25 (ix4 b r i j) = ix3 b r (flat i j) := funext fun a => Fin.ext (by
    have hb := b.isLt; have hr := r.isLt; have hi := i.isLt; have hj := j.isLt
    match a with
    | ⟨0, _⟩ => show (((b.val * 2048 + r.val) * 3 + i.val) * 3 + j.val) / 18432 = b.val; omega
    | ⟨1, _⟩ => show (((b.val * 2048 + r.val) * 3 + i.val) * 3 + j.val) / 9 % 2048 = r.val; omega
    | ⟨2, _⟩ => show (((b.val * 2048 + r.val) * 3 + i.val) * 3 + j.val) % 9 = 3 * i.val + j.val; omega)
  rw [e, skew_at]

/-- The sine of the angle, broadcast over the matrix. -/
theorem sin_at (i j : Fin 3) : val_main_v39 (F := Ideal) x0 (ix4 b r i j) = sn (row x0 b r) := by
  rw [val_main_v39_apply, val_main_v27_apply, val_main_v26_apply]
  have e : idx_main_v27 (idx_main_v39 (ix4 b r i j)) = ix3 b r (0 : Fin 1) :=
    funext fun a => Fin.ext (by match a with | ⟨0, _⟩ => rfl | ⟨1, _⟩ => rfl | ⟨2, _⟩ => rfl)
  rw [e, angle_at]
  rfl

/-- One minus the cosine of the angle, broadcast over the matrix. -/
theorem vers_at (i j : Fin 3) : val_main_v44 (F := Ideal) x0 (ix4 b r i j) = vers (row x0 b r) := by
  rw [val_main_v44_apply, val_main_v31_apply]
  have e : idx_main_v31 (idx_main_v44 (ix4 b r i j)) = ix3 b r (0 : Fin 1) :=
    funext fun a => Fin.ext (by match a with | ⟨0, _⟩ => rfl | ⟨1, _⟩ => rfl | ⟨2, _⟩ => rfl)
  rw [e, val_main_v30_apply, val_main_v29_apply, val_main_cst_1_apply, val_main_v28_apply, angle_at]
  show Ideal.ofBits .f32 0x3F800000#32 - Ideal.cos (angle (row x0 b r)) = _
  rw [Ideal.ofBits_one_f32]
  rfl

/-- The comparison of the two iotas of a 3 × 3 array, as one-bit words. -/
theorem iota_eq : ∀ i j : Fin 3,
    IntOp.cmpi .eq (IntOp.addi (BitVec.ofNat 32 i.val) 0#32) (BitVec.ofNat 32 j.val) = if i = j then 1#1 else 0#1 := by
  decide

/-- The identity matrix, broadcast over the twists. -/
theorem eye_at (i j : Fin 3) : val_main_v42 (F := Ideal) (ix4 b r i j) = eye i j := by
  rw [val_main_v42_apply, val_main_v41_apply, val_main_v38_apply, val_main_v37_apply, val_main_v36_apply,
    val_main_v33_apply, val_main_v34_apply, val_main_v35_apply, val_main_c_apply]
  show (((IntOp.cmpi .eq (IntOp.addi (BitVec.ofNat 32 i.val) 0#32) (BitVec.ofNat 32 j.val)).toNat : ℝ) : EReal) = _
  rw [iota_eq]
  unfold eye
  split <;> simp

/-- The square of the cross-product matrix: the host's product contracts the middle index. -/
theorem square_at (i j : Fin 3) :
    val_main_v32 (F := Ideal) x0 (ix4 b r i j) = ∑ k : Fin 3, skew (row x0 b r) (flat i k) * skew (row x0 b r) (flat k j) := by
  rw [val_main_v32_apply]
  refine Finset.sum_congr rfl fun k _ => ?_
  have el : lidx_main_v32 (ix4 b r i j) k = ix4 b r i k :=
    funext fun a => Fin.ext (by match a with | ⟨0, _⟩ => rfl | ⟨1, _⟩ => rfl | ⟨2, _⟩ => rfl | ⟨3, _⟩ => rfl)
  have er : ridx_main_v32 (ix4 b r i j) k = ix4 b r k j :=
    funext fun a => Fin.ext (by match a with | ⟨0, _⟩ => rfl | ⟨1, _⟩ => rfl | ⟨2, _⟩ => rfl | ⟨3, _⟩ => rfl)
  rw [el, er, matrix_at, matrix_at]

/-- The reference's result at `(b, r, i, j)`: `I + A · sin θ + (A A) · (1 - cos θ)` at `(i, j)`, which is the
    written-out entry. -/
theorem result_at (i j : Fin 3) : val_main_v46 (F := Ideal) x0 (ix4 b r i j) = entry (row x0 b r) (flat i j) := by
  rw [val_main_v46_apply, val_main_v43_apply, val_main_v45_apply, val_main_v40_apply, eye_at, matrix_at, sin_at,
    square_at, vers_at]
  exact matrixEntry_eq_entry (row x0 b r) i j

/-- The reference computes `rotations` of its argument. -/
theorem reference_eq : val_main_v46 (F := Ideal) x0 = rotations x0 := by
  funext i
  obtain ⟨b, r, p, q, rfl⟩ : ∃ (b : Fin 4096) (r : Fin 2048) (p q : Fin 3), i = ix4 b r p q := ⟨i 0, i 1, i 2, i 3, eq_ix4 i⟩
  exact result_at x0 b r p q

end Cert.ReferenceIdeal.RefValue
end
-- ==== Proof.lean ====
/-
  The certificate: a tiled elementwise kernel for Rodrigues' rotation formula against its matrix-form reference.

  Both programs take a [4096, 2048, 3] array of twists and return, for each twist, the 3 × 3 rotation matrix
  `I + sin θ · A + (1 - cos θ) · A²`, with `θ` the twist's norm clamped from below by one fixed constant and `A`
  the cross-product matrix of the twist divided by `θ`. The reference forms `A` and multiplies it by itself; the
  kernel regroups the twists as 8388608 rows, streams them through blocks of 4096 rows, writes the nine entries of each
  row's matrix out in closed form, and regroups the [8388608, 9] result as [4096, 2048, 3, 3].

  At the ideal instance both results are ONE function of the argument array, `Cert.Rodrigues.rotations`:
  - the reference, stage by stage (Proof/ReferenceValue.lean, `reference_eq`), using that the matrix form of an entry
    equals its written-out form for every extended real (Proof/Rodrigues.lean, `matrixEntry_eq_entry`: only
    `0 · u = 0`, `0 + u = u`, the sign of a product, subtraction as adding the opposite, and commutativity are
    used, so no finiteness is needed and the precondition is never opened);
  - the kernel program: what the body stores at row `p` is the written-out form for row `p` of the block it loaded
    (Proof/KernelRow.lean), the blocks tile the rows, so the region's array is the row-wise function of the array it
    reads, and the two regroupings around the region turn rows into twists (Proof/KernelArray.lean, `run`).

  The three frames are the generated ones (the reference's is its generated run with the result dropped); the kernel's
  idealization rewrote nothing, so `preserves` is trivial.
-/
import proofs.«135314_j48696339202533_2_alg».proof.Defs
import proofs.«135314_j48696339202533_2_alg».proof.Proof.Gen.Kernel
import proofs.«135314_j48696339202533_2_alg».proof.Proof.Gen.Kernel.Skeleton
import proofs.«135314_j48696339202533_2_alg».proof.Proof.Gen.Kernel.Launch
import proofs.«135314_j48696339202533_2_alg».proof.Proof.Gen.Kernel.Points
import proofs.«135314_j48696339202533_2_alg».proof.Proof.Gen.Kernel.Frame
import proofs.«135314_j48696339202533_2_alg».proof.Proof.Gen.KernelIdeal
import proofs.«135314_j48696339202533_2_alg».proof.Proof.Gen.KernelIdeal.Skeleton
import proofs.«135314_j48696339202533_2_alg».proof.Proof.Gen.KernelIdeal.Launch
import proofs.«135314_j48696339202533_2_alg».proof.Proof.Gen.KernelIdeal.Points
import proofs.«135314_j48696339202533_2_alg».proof.Proof.Gen.KernelIdeal.Frame
import proofs.«135314_j48696339202533_2_alg».proof.Proof.Gen.ReferenceIdeal
import proofs.«135314_j48696339202533_2_alg».proof.Proof.Gen.ReferenceIdeal.Run
import proofs.«135314_j48696339202533_2_alg».proof.Proof.Gen.ReferenceIdeal.Read
import proofs.«135314_j48696339202533_2_alg».proof.Proof.Gen.Pre_finite_inputs
import proofs.«135314_j48696339202533_2_alg».proof.Proof.Rodrigues
import proofs.«135314_j48696339202533_2_alg».proof.Proof.KernelArray
import proofs.«135314_j48696339202533_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its argument as launched: its run, with the result's equation dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, both programs end with `rotations` of it. -/
theorem algebraic : Cert.algebraic_KernelIdeal_ReferenceIdeal := by
  intro m ρ m' ρ' _ hagree
  refine ⟨fun c => Cert.Rodrigues.rotations (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v46_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
